-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x64, .f32⟩
  | .hbm, ⟨65, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibGcnLayer.lean ====
/-
  One graph-convolution layer, entry by entry, on the extended reals.

  A layer first multiplies every node's feature row by a weight matrix: entry (r, n) of the product is
  sum_k x(r, k) * w(k, n), a function of row r of x only.  It then adds, to the aggregated neighbour messages
  agg(r, n), the node's own row scaled by a per-node factor d(r), and a bias b(n):
  (agg(r, n) + d(r) * xw(r, n)) + b(n), followed on the hidden layers by a maximum with zero.  Entry (r, n)
  of that depends on entry (r, n) of agg and xw, on d(r) and on b(n) only.  Because of this a program that
  walks over blocks of rows computes the same array as one that works on whole matrices, and the two
  spellings met here (a matrix product accumulated into a zero splat on operands narrowed to bf16, against a
  dot_general; the factor as a column and the bias as a row, against both broadcast from vectors) read to
  the same functions.  Everything is generic in the extents.
-/
import proofs.«142148_j89601607729381_1_alg».proof.Proof.LibDense
import proofs.«142148_j89601607729381_1_alg».proof.Proof.LibLayout
import Idealize.ShloMosaic.Lib.ValueIdx
import Idealize.ShloMosaic.Lib.Pipeline.Value
import Idealize.ShloMosaic.PureOps.Ideal.Laws

noncomputable section

open scoped BigOperators

namespace Cert.Gcn

open Idealize.ShloMosaic Idealize.ShloMosaic.ValueIdx

/-! ## The product with the weights -/

/-- Entry (r, n) of x times w: the sum over k of x(r, k) * w(k, n). -/
def lin (A K N : Nat) (x : FVec Ideal ⟨2, ![A, K]⟩ .f32) (w : FVec Ideal ⟨2, ![K, N]⟩ .f32) : FVec Ideal ⟨2, ![A, N]⟩ .f32 :=
  fun j => ∑ k : Fin K, x (ix2 (j 0 : Fin A) k) * w (ix2 k (j 1 : Fin N))

/-- A matrix product of operands narrowed to bf16, accumulated into a zero splat, is that sum: narrowing is the
    identity on extended reals and the zero accumulator adds nothing. -/
theorem lin_of_matmul {A K N : Nat} (x : FVec Ideal ⟨2, ![A, K]⟩ .f32) (w : FVec Ideal ⟨2, ![K, N]⟩ .f32)
    (hlt : FTy.bits .bf16 < FTy.bits .f32) :
    matmul (DotDims.plain A K N) none (truncf .bf16 x hlt) (truncf .bf16 w hlt) (constant ⟨2, ![A, N]⟩ .f32 0x00000000#32)
      = lin A K N x w := by
  funext j
  exact (Ideal.matmul_constant_zero_apply (DotDims.plain A K N) none (truncf .bf16 x hlt) (truncf .bf16 w hlt) j).trans
    (Cert.LibDense.plain_sum A K N x w j)

/-- The host's dot_general with the plain dimension numbers is the same sum. -/
theorem lin_of_dotGeneral {A K N : Nat} (x : FVec Ideal ⟨2, ![A, K]⟩ .f32) (w : FVec Ideal ⟨2, ![K, N]⟩ .f32) :
    Host.dotGeneral (DotDims.plain A K N) none x w = lin A K N x w := by
  funext j
  exact (Ideal.dotGeneral_apply (DotDims.plain A K N) none _ x w j).trans (Cert.LibDense.plain_sum A K N x w j)

/-- Entry (p, q) of the product depends on row p of the left factor and on column q of the right one only. -/
theorem lin_entry {A A' K N : Nat} (x : FVec Ideal ⟨2, ![A, K]⟩ .f32) (x' : FVec Ideal ⟨2, ![A', K]⟩ .f32)
    (w w' : FVec Ideal ⟨2, ![K, N]⟩ .f32) (p : Fin A) (r : Fin A') (q : Fin N)
    (hx : ∀ k : Fin K, x (ix2 p k) = x' (ix2 r k)) (hw : ∀ k : Fin K, w (ix2 k q) = w' (ix2 k q)) :
    lin A K N x w (ix2 p q) = lin A' K N x' w' (ix2 r q) := by
  show (∑ k : Fin K, x (ix2 p k) * w (ix2 k q)) = ∑ k : Fin K, x' (ix2 r k) * w' (ix2 k q)
  exact Finset.sum_congr rfl fun k _ => by rw [hx k, hw k]

/-! ## Messages, self term and bias -/

/-- Entry (r, n) of a layer before its activation, the per-node factor given as a column and the bias as a row:
    (agg(r, n) + d(r, 0) * xw(r, n)) + b(0, n). -/
def comb (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => (agg j + dcol (ix2 (j 0 : Fin A) (0 : Fin 1)) * xw j) + brow (ix2 (0 : Fin 1) (j 1 : Fin N))

/-- The same followed by the maximum with zero. -/
def combRelu (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => max (comb A N agg xw dcol brow j) (Ideal.ofBits .f32 0x00000000#32)

/-- Entry (p, q) depends on entry (p, q) of the messages and of the product, on the factor of row p and on the
    bias of column q. -/
theorem comb_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    comb A N agg xw dcol brow (ix2 p q) = comb A' N agg' xw' dcol' brow' (ix2 r q) := by
  show (agg (ix2 p q) + dcol (ix2 p (0 : Fin 1)) * xw (ix2 p q)) + brow (ix2 (0 : Fin 1) q)
    = (agg' (ix2 r q) + dcol' (ix2 r (0 : Fin 1)) * xw' (ix2 r q)) + brow' (ix2 (0 : Fin 1) q)
  rw [h1, h2, h3, h4]

theorem combRelu_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    combRelu A N agg xw dcol brow (ix2 p q) = combRelu A' N agg' xw' dcol' brow' (ix2 r q) :=
  congrArg (max · (Ideal.ofBits .f32 0x00000000#32)) (comb_entry agg xw dcol brow brow' agg' xw' dcol' p r q h1 h2 h3 h4)

/-- A one-row array broadcast down the rows reads, at (p, q), the row's entry of column q. -/
theorem broadcastTo_1n_an_apply {A N : Nat} {α : Type} (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The hidden layers' body: identity casts of the loaded blocks, the factor's column broadcast along the rows, the
    bias row broadcast down them, a maximum with a splatted zero. -/
theorem combRelu_of_body {A N : Nat} (agg xw : FVec Ideal ⟨2, ![A, N]⟩ .f32) (dcol : FVec Ideal ⟨2, ![A, 1]⟩ .f32)
    (brow : FVec Ideal ⟨2, ![1, N]⟩ .f32)
    (hAN : (⟨2, ![A, N]⟩ : Shape).ShapeCasts ⟨2, ![A, N]⟩) (hA1 : (⟨2, ![A, 1]⟩ : Shape).ShapeCasts ⟨2, ![A, 1]⟩)
    (h1N : (⟨2, ![1, N]⟩ : Shape).ShapeCasts ⟨2, ![1, N]⟩)
    (hbd : (⟨2, ![A, 1]⟩ : Shape).Broadcasts ⟨2, ![A, N]⟩) (hbb : (⟨2, ![1, N]⟩ : Shape).Broadcasts ⟨2, ![A, N]⟩) :
    maximumf (addf (addf (shapeCast ⟨2, ![A, N]⟩ agg hAN)
        (mulf (broadcastTo ⟨2, ![A, N]⟩ (shapeCast ⟨2, ![A, 1]⟩ dcol hA1) hbd) (shapeCast ⟨2, ![A, N]⟩ xw hAN)))
        (broadcastTo ⟨2, ![A, N]⟩ (shapeCast ⟨2, ![1, N]⟩ brow h1N) hbb))
      (broadcast ⟨2, ![A, N]⟩ (Scalar.ofBits (F := Ideal) .f32 0x00000000#32))
      = combRelu A N agg xw dcol brow := by
  funext j
  obtain ⟨p, q, rfl⟩ : ∃ (p : Fin A) (q : Fin N), j = ix2 p q := ⟨j 0, j 1, eq_ix2 j⟩
  rw [shapeCast_self, shapeCast_self, shapeCast_self, shapeCast_self]
  show max ((agg (ix2 p q) + broadcastTo ⟨2, ![A, N]⟩ dcol hbd (ix2 p q) * xw (ix2 p q))
      + broadcastTo ⟨2, ![A, N]⟩ brow hbb (ix2 p q)) (Ideal.ofBits .f32 0x00000000#32) = _
  rw [Cert.LibLayout.broadcastTo_a1_ab_apply dcol hbd p q, broadcastTo_1n_an_apply brow hbb p q]
  rfl

/-- The last layer's body (one output column, no activation): the factor's column is already of the output's shape. -/
theorem comb_of_body {A : Nat} (agg xw dcol : FVec Ideal ⟨2, ![A, 1]⟩ .f32) (brow : FVec Ideal ⟨2, ![1, 1]⟩ .f32)
    (hA1 : (⟨2, ![A, 1]⟩ : Shape).ShapeCasts ⟨2, ![A, 1]⟩) (h11 : (⟨2, ![1, 1]⟩ : Shape).ShapeCasts ⟨2, ![1, 1]⟩)
    (hbb : (⟨2, ![1, 1]⟩ : Shape).Broadcasts ⟨2, ![A, 1]⟩) :
    addf (addf (shapeCast ⟨2, ![A, 1]⟩ agg hA1) (mulf (shapeCast ⟨2, ![A, 1]⟩ dcol hA1) (shapeCast ⟨2, ![A, 1]⟩ xw hA1)))
        (broadcastTo ⟨2, ![A, 1]⟩ (shapeCast ⟨2, ![1, 1]⟩ brow h11) hbb)
      = comb A 1 agg xw dcol brow := by
  funext j
  obtain ⟨p, q, rfl⟩ : ∃ (p : Fin A) (q : Fin 1), j = ix2 p q := ⟨j 0, j 1, eq_ix2 j⟩
  rw [shapeCast_self, shapeCast_self, shapeCast_self, shapeCast_self]
  show (agg (ix2 p q) + dcol (ix2 p q) * xw (ix2 p q)) + broadcastTo ⟨2, ![A, 1]⟩ brow hbb (ix2 p q) = _
  rw [broadcastTo_1n_an_apply brow hbb p q]
  have hq : q = (0 : Fin 1) := Subsingleton.elim _ _
  subst hq
  rfl

/-! ## The factor and the bias given as vectors -/

/-- A vector cast to one row reads, at (0, q), the vector at q. -/
theorem shapeCast_n_1n_apply {N : Nat} {α : Type} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]; show q.val = 0 * N + q.val; omega)

/-- With the factor a vector cast to a column and the bias a vector cast to a row, entry (r, q) reads the factor at r
    and the bias at q. -/
theorem comb_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    comb A N agg xw (shapeCast ⟨2, ![A, 1]⟩ d hd) (shapeCast ⟨2, ![1, N]⟩ b hb) (ix2 r q)
      = (agg (ix2 r q) + d (ix1 r) * xw (ix2 r q)) + b (ix1 q) := by
  show (agg (ix2 r q) + shapeCast ⟨2, ![A, 1]⟩ d hd (ix2 r (0 : Fin 1)) * xw (ix2 r q))
    + shapeCast ⟨2, ![1, N]⟩ b hb (ix2 (0 : Fin 1) q) = _
  rw [Cert.LibLayout.shapeCast_a_a1_apply d hd r (0 : Fin 1), shapeCast_n_1n_apply b hb q]

theorem combRelu_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    combRelu A N agg xw (shapeCast ⟨2, ![A, 1]⟩ d hd) (shapeCast ⟨2, ![1, N]⟩ b hb) (ix2 r q)
      = max ((agg (ix2 r q) + d (ix1 r) * xw (ix2 r q)) + b (ix1 q)) (Ideal.ofBits .f32 0x00000000#32) :=
  congrArg (max · (Ideal.ofBits .f32 0x00000000#32)) (comb_of_casts agg xw d b hd hb r q)

end Cert.Gcn

end
-- ==== Proof.LibSageLayer.lean ====
/-
  One GraphSAGE layer with mean aggregation, entry by entry, on the extended reals.

  Given the mean of the neighbours' feature rows agg and the nodes' own rows x, the layer's entry (r, n) is
  sum_k agg(r, k) * wl(k, n)  +  b(n)  +  sum_k x(r, k) * wr(k, n),  followed on a hidden layer by a maximum
  with zero.  It depends on row r of agg and of x, on column n of the two weight matrices and on b(n) only, so a
  program that walks over blocks of rows computes the same array as one that multiplies whole matrices.

  Two spellings are read to this one function.  The host's: two dot_generals, the bias broadcast to a row and
  then down the rows, added between the two products.  A kernel body's: two matrix products of operands
  narrowed to bf16, each accumulated into a zero splat, added first, and a bias ROW broadcast down the rows added
  last.  The two groupings (p1 + p2) + b and (p1 + b) + p2 agree because addition of extended reals is
  commutative and associative; no finiteness is needed.  Everything is generic in the extents.
-/
import proofs.«142148_j89601607729381_1_alg».proof.Proof.LibGcnLayer
import Idealize.ShloMosaic.Lib.ValueIdx
import Idealize.ShloMosaic.Lib.Pipeline.Value
import Idealize.ShloMosaic.PureOps.Ideal.Laws

noncomputable section

open scoped BigOperators

namespace Cert.SageLayer

open Idealize.ShloMosaic Idealize.ShloMosaic.ValueIdx Cert.Gcn

/-! ## The layer as one function of rows -/

/-- Entry (r, n) of the layer before its activation, the bias given as a function of the column:
    (sum_k agg(r, k) * wl(k, n) + β n) + sum_k x(r, k) * wr(k, n). -/
def sage (A K N : Nat) (agg x : FVec Ideal ⟨2, ![A, K]⟩ .f32) (wl wr : FVec Ideal ⟨2, ![K, N]⟩ .f32)
    (β : Fin N → EReal) : FVec Ideal ⟨2, ![A, N]⟩ .f32 :=
  fun j => (lin A K N agg wl j + β (j 1 : Fin N)) + lin A K N x wr j

/-- The same followed by the maximum with zero. -/
def sageRelu (A K N : Nat) (agg x : FVec Ideal ⟨2, ![A, K]⟩ .f32) (wl wr : FVec Ideal ⟨2, ![K, N]⟩ .f32)
    (β : Fin N → EReal) : FVec Ideal ⟨2, ![A, N]⟩ .f32 :=
  fun j => max (sage A K N agg x wl wr β j) (Ideal.ofBits .f32 0x00000000#32)

/-! ## The host's spelling -/

/-- Two dot_generals with the bias, broadcast to one row and then down the rows, added between them. -/
theorem sage_host {A K N : Nat} (agg x : FVec Ideal ⟨2, ![A, K]⟩ .f32) (wl wr : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (addf (Host.dotGeneral (DotDims.plain A K N) none agg wl)
        (broadcastInDim ⟨2, ![A, N]⟩ ![0, 1] hbc (broadcastInDim ⟨2, ![1, N]⟩ ![1] hd b)))
      (Host.dotGeneral (DotDims.plain A K N) none x wr)
      = sage A K N agg x wl wr (fun q => b (ix1 q)) := by
  funext j
  rw [addf_apply, addf_apply, lin_of_dotGeneral, lin_of_dotGeneral, Cert.LibDense.bias_rows_host b hd hbc j]
  rfl

/-- The hidden layer on the host: the same under a maximum with a broadcast zero. -/
theorem sageRelu_host {A K N : Nat} (agg x : FVec Ideal ⟨2, ![A, K]⟩ .f32) (wl wr : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (addf (Host.dotGeneral (DotDims.plain A K N) none agg wl)
        (broadcastInDim ⟨2, ![A, N]⟩ ![0, 1] hbc (broadcastInDim ⟨2, ![1, N]⟩ ![1] hd b)))
      (Host.dotGeneral (DotDims.plain A K N) none x wr))
      (broadcastInDim ⟨2, ![A, N]⟩ ![] hS (constant (F := Ideal) ⟨0, ![]⟩ .f32 0x00000000#32))
      = sageRelu A K N agg x wl wr (fun q => b (ix1 q)) := by
  rw [sage_host agg x wl wr b hd hbc]
  rfl

/-! ## A kernel body's spelling, at one entry of a block of rows -/

/-- The two products added first and the bias row last: what a body that loads a block of rows of agg and of x,
    both weight matrices and the bias row leaves at entry (p, q), before any activation. Both row blocks pass
    through an identity cast. -/
theorem body_entry {A K N : Nat} (agg x : FVec Ideal ⟨2, ![A, K]⟩ .f32) (wl wr : FVec Ideal ⟨2, ![K, N]⟩ .f32)
    (brow : FVec Ideal ⟨2, ![1, N]⟩ .f32) (hlt : FTy.bits .bf16 < FTy.bits .f32)
    (hAK : (⟨2, ![A, K]⟩ : Shape).ShapeCasts ⟨2, ![A, K]⟩) (h1N : (⟨2, ![1, N]⟩ : Shape).ShapeCasts ⟨2, ![1, N]⟩)
    (hbb : (⟨2, ![1, N]⟩ : Shape).Broadcasts ⟨2, ![A, N]⟩) (p : Fin A) (q : Fin N) :
    addf (addf (matmul (DotDims.plain A K N) none (truncf .bf16 (shapeCast ⟨2, ![A, K]⟩ agg hAK) hlt) (truncf .bf16 wl hlt)
          (constant ⟨2, ![A, N]⟩ .f32 0x00000000#32))
        (matmul (DotDims.plain A K N) none (truncf .bf16 (shapeCast ⟨2, ![A, K]⟩ x hAK) hlt) (truncf .bf16 wr hlt)
          (constant ⟨2, ![A, N]⟩ .f32 0x00000000#32)))
      (broadcastTo ⟨2, ![A, N]⟩ (shapeCast ⟨2, ![1, N]⟩ brow h1N) hbb) (ix2 p q)
      = (lin A K N agg wl (ix2 p q) + lin A K N x wr (ix2 p q)) + brow (ix2 (0 : Fin 1) q) := by
  rw [shapeCast_self, shapeCast_self, shapeCast_self, lin_of_matmul, lin_of_matmul, addf_apply, addf_apply,
    broadcastTo_1n_an_apply brow hbb p q]

/-- The hidden layer's body: only the block of agg passes through an identity cast, and a maximum with a
    splatted zero follows. -/
theorem bodyRelu_entry {A K N : Nat} (agg x : FVec Ideal ⟨2, ![A, K]⟩ .f32) (wl wr : FVec Ideal ⟨2, ![K, N]⟩ .f32)
    (brow : FVec Ideal ⟨2, ![1, N]⟩ .f32) (hlt : FTy.bits .bf16 < FTy.bits .f32)
    (hAK : (⟨2, ![A, K]⟩ : Shape).ShapeCasts ⟨2, ![A, K]⟩) (h1N : (⟨2, ![1, N]⟩ : Shape).ShapeCasts ⟨2, ![1, N]⟩)
    (hbb : (⟨2, ![1, N]⟩ : Shape).Broadcasts ⟨2, ![A, N]⟩) (p : Fin A) (q : Fin N) :
    maximumf (addf (addf (matmul (DotDims.plain A K N) none (truncf .bf16 (shapeCast ⟨2, ![A, K]⟩ agg hAK) hlt) (truncf .bf16 wl hlt)
            (constant ⟨2, ![A, N]⟩ .f32 0x00000000#32))
          (matmul (DotDims.plain A K N) none (truncf .bf16 x hlt) (truncf .bf16 wr hlt)
            (constant ⟨2, ![A, N]⟩ .f32 0x00000000#32)))
        (broadcastTo ⟨2, ![A, N]⟩ (shapeCast ⟨2, ![1, N]⟩ brow h1N) hbb))
      (broadcast ⟨2, ![A, N]⟩ (Scalar.ofBits (F := Ideal) .f32 0x00000000#32)) (ix2 p q)
      = max ((lin A K N agg wl (ix2 p q) + lin A K N x wr (ix2 p q)) + brow (ix2 (0 : Fin 1) q))
          (Ideal.ofBits .f32 0x00000000#32) := by
  rw [shapeCast_self, shapeCast_self, lin_of_matmul, lin_of_matmul, maximumf_apply, addf_apply, addf_apply,
    broadcastTo_1n_an_apply brow hbb p q]
  rfl

/-! ## The body's grouping against the layer's -/

/-- Entry (p, q) of the body's grouping on a block is entry (r, q) of the layer on the whole arrays, when row p of
    each block is row r of its array, column q of the weights agrees, and the bias row holds β. -/
theorem grouped_eq_sage {A A' K N : Nat} (agg x : FVec Ideal ⟨2, ![A, K]⟩ .f32) (wl wr : FVec Ideal ⟨2, ![K, N]⟩ .f32)
    (brow : FVec Ideal ⟨2, ![1, N]⟩ .f32) (agg' x' : FVec Ideal ⟨2, ![A', K]⟩ .f32) (wl' wr' : FVec Ideal ⟨2, ![K, N]⟩ .f32)
    (β : Fin N → EReal) (p : Fin A) (r : Fin A') (q : Fin N)
    (hagg : ∀ k : Fin K, agg (ix2 p k) = agg' (ix2 r k)) (hx : ∀ k : Fin K, x (ix2 p k) = x' (ix2 r k))
    (hwl : ∀ k : Fin K, wl (ix2 k q) = wl' (ix2 k q)) (hwr : ∀ k : Fin K, wr (ix2 k q) = wr' (ix2 k q))
    (hb : brow (ix2 (0 : Fin 1) q) = β q) :
    (lin A K N agg wl (ix2 p q) + lin A K N x wr (ix2 p q)) + brow (ix2 (0 : Fin 1) q)
      = sage A' K N agg' x' wl' wr' β (ix2 r q) := by
  show _ = (lin A' K N agg' wl' (ix2 r q) + β q) + lin A' K N x' wr' (ix2 r q)
  rw [lin_entry agg agg' wl wl' p r q hagg hwl, lin_entry x x' wr wr' p r q hx hwr, hb, add_right_comm]

end Cert.SageLayer

end
-- ==== Proof.HiddenLayer.lean ====
/-
  The array the first pallas_call leaves: the hidden layer of the network, on all 50000 rows.

  The call walks ten blocks of 5000 rows.  At point t its body loads rows 5000 t … 5000 t + 4999 of the mean
  aggregate and of the node features, both 128 x 128 weight matrices whole and the bias row, and stores
  max((agg_blk · W_l + x_blk · W_r) + b, 0) as block t of the output.  Entry (p, q) of that block depends on row p
  of the two row blocks only, which is row 5000 t + p of the arrays, so the block is the restriction of ONE
  function of the whole arrays — the layer `sageRelu` — and since the ten blocks tile the output, the output array
  ends as that function.  All of it is stated at the contents `V` the call is entered with, whatever they are.
-/
import proofs.«142148_j89601607729381_1_alg».proof.Proof.Gen.KernelIdeal.Frame
import proofs.«142148_j89601607729381_1_alg».proof.Proof.LibSageLayer
import Idealize.ShloMosaic.Lib.Pipeline.Value
import Idealize.ShloMosaic.Lib.ValueIdx

set_option maxRecDepth 16384

noncomputable section

namespace Cert.KernelIdeal.Hidden

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn Cert.SageLayer

variable (V : (c : Dev nD) → (b : Ref sig .tc) → Buf (Elt Ideal) ((c : Thread nD τ).loc b))

theorem offs_zero : (![0, 0] : Fin 2 → Nat) = fun _ => 0 := funext fun a => by fin_cases a <;> rfl

/-- The hidden layer as one function of the arrays the call is entered with: the mean aggregate, the node
    features, the two weight matrices, and the bias as the one row the host reshaped it to. -/
def hidden (c : Dev nD) : S50000x128.Idx → EReal :=
  sageRelu 50000 128 128 (V c main_v22) (V c main_arg0) (V c main_arg2) (V c main_arg3)
    (fun q => V c main_v23 (ix2 (0 : Fin 1) q))

/-- The body's stored value at entry (p, q) of a block, from the loaded blocks. -/
theorem stored_entry (x0 x1 : FVec Ideal S5000x128 .f32) (x2 x3 : FVec Ideal S128x128 .f32) (x4 : FVec Ideal S1x128 .f32)
    (p : Fin 5000) (q : Fin 128) :
    k0_pay1 x0 x1 x2 x3 x4 (ix2 p q)
      = max ((lin 5000 128 128 x0 x2 (ix2 p q) + lin 5000 128 128 x1 x3 (ix2 p q)) + x4 (ix2 (0 : Fin 1) q))
          (Ideal.ofBits .f32 0x00000000#32) := by
  unfold k0_pay1
  exact bodyRelu_entry x0 x1 x2 x3 x4 bitsLt_bf16_f32 shapeCasts_S5000x128_S5000x128 shapeCasts_S1x128_S1x128
    broadcasts_S1x128_S5000x128 p q

/-- The printed index maps over the grid: the row windows and the output are at block t, the weights and the bias
    at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The loaded blocks, read where the output's entry says -/

/-- Row p of the aggregate's block at point t is row 5000 t + p of the aggregate. -/
theorem read_agg (c : Dev nD) (t : Fin cfg0.N) (p : Fin 5000) (k : Fin 128) (r : Fin 50000)
    (hr : r.val = t.val * 5000 + p.val) : iblk0 V c 0 t (ix2 p k) = V c main_v22 (ix2 r k) := by
  show V c main_v22 (((cfg0.win 0).blk t).view.emb (ix2 p k)) = V c main_v22 (ix2 r k)
  obtain ⟨e0, e1, -⟩ := index_maps t
  refine congrArg (V c main_v22) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of the features' block at point t is row 5000 t + p of the features. -/
theorem read_x (c : Dev nD) (t : Fin cfg0.N) (p : Fin 5000) (k : Fin 128) (r : Fin 50000)
    (hr : r.val = t.val * 5000 + p.val) : iblk0 V c 1 t (ix2 p k) = V c main_arg0 (ix2 r k) := by
  show V c main_arg0 (((cfg0.win 1).blk t).view.emb (ix2 p k)) = V c main_arg0 (ix2 r k)
  obtain ⟨-, -, e0, e1, -⟩ := index_maps t
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The left weights are loaded whole. -/
theorem read_wl (c : Dev nD) (t : Fin cfg0.N) (k : Fin 128) (q : Fin 128) :
    iblk0 V c 2 t (ix2 k q) = V c main_arg2 (ix2 k q) := by
  show V c main_arg2 (((cfg0.win 2).blk t).view.emb (ix2 k q)) = V c main_arg2 (ix2 k q)
  obtain ⟨-, -, -, -, e0, e1, -⟩ := index_maps t
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The right weights are loaded whole. -/
theorem read_wr (c : Dev nD) (t : Fin cfg0.N) (k : Fin 128) (q : Fin 128) :
    iblk0 V c 3 t (ix2 k q) = V c main_arg3 (ix2 k q) := by
  show V c main_arg3 (((cfg0.win 3).blk t).view.emb (ix2 k q)) = V c main_arg3 (ix2 k q)
  obtain ⟨-, -, -, -, -, -, e0, e1, -⟩ := index_maps t
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row is loaded whole. -/
theorem read_b (c : Dev nD) (t : Fin cfg0.N) (q : Fin 128) :
    iblk0 V c 4 t (ix2 (0 : Fin 1) q) = V c main_v23 (ix2 (0 : Fin 1) q) := by
  show V c main_v23 (((cfg0.win 4).blk t).view.emb (ix2 (0 : Fin 1) q)) = V c main_v23 (ix2 (0 : Fin 1) q)
  obtain ⟨-, -, -, -, -, -, -, -, e0, e1, -⟩ := index_maps t
  refine congrArg (V c main_v23) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## What a point writes back, the cover, the array -/

/-- What point t writes back is block t of the hidden layer. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero offs_zero]
  simp only [View.ld_unit_zero (S := S5000x128) offs_zero, View.ld_unit_zero (S := S128x128) offs_zero,
    View.ld_unit_zero (S := S1x128) offs_zero]
  funext j
  obtain ⟨p, q, rfl⟩ : ∃ (p : Fin 5000) (q : Fin 128), j = ix2 p q := ⟨j 0, j 1, eq_ix2 j⟩
  have ht : t.val < 10 := by have h : t.val < grid0.N := t.isLt; have hN : grid0.N = 10 := N_0; omega
  obtain ⟨-, -, -, -, -, -, -, -, -, -, e0, e1⟩ := index_maps t
  have hemb : ((cfg0.win 5).blk t).view.emb (ix2 p q) = ix2 (⟨t.val * 5000 + p.val, by omega⟩ : Fin 50000) q :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  show k0_pay1 (iblk0 V c 0 t) (iblk0 V c 1 t) (iblk0 V c 2 t) (iblk0 V c 3 t) (iblk0 V c 4 t) (ix2 p q)
    = hidden V c (((cfg0.win 5).blk t).view.emb (ix2 p q))
  rw [hemb]
  refine (stored_entry (iblk0 V c 0 t) (iblk0 V c 1 t) (iblk0 V c 2 t) (iblk0 V c 3 t) (iblk0 V c 4 t) p q).trans ?_
  refine congrArg (max · (Ideal.ofBits .f32 0x00000000#32)) ?_
  exact grouped_eq_sage (iblk0 V c 0 t) (iblk0 V c 1 t) (iblk0 V c 2 t) (iblk0 V c 3 t) (iblk0 V c 4 t)
    (V c main_v22) (V c main_arg0) (V c main_arg2) (V c main_arg3) (fun q => V c main_v23 (ix2 (0 : Fin 1) q))
    p ⟨t.val * 5000 + p.val, by omega⟩ q
    (fun k => read_agg V c t p k _ rfl) (fun k => read_x V c t p k _ rfl)
    (fun k => read_wl V c t k q) (fun k => read_wr V c t k q) (read_b V c t q)

/-- An index of the output array is in point t's block iff each coordinate is in the block's range. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- The ten blocks tile the output: row r is in block r / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨-, -, -, -, -, -, -, -, -, -, e0, e1⟩ := index_maps t
  have e0' : win0_5.index t (0 : Fin 2) = (i 0).val / 5000 := e0
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE ARRAY after the call: the hidden layer of the arrays it was entered with. -/
theorem array_eq (c : Dev nD) : (dat0 V c).arrAt 5 cfg0.N = hidden V c :=
  (dat0 V c).arrAt_eq_of_cover 5 (hidden V c) (fun t _ => flushed_eq V c t) (cover)

end Cert.KernelIdeal.Hidden

end
-- ==== Proof.OutputLayer.lean ====
/-
  The array the second pallas_call leaves: the output layer of the network, on all 50000 rows.

  As in the first call, ten blocks of 5000 rows.  At point t the body loads rows 5000 t … 5000 t + 4999 of the
  second mean aggregate and of the hidden features, both 128 x 64 weight matrices whole and the bias row, and
  stores (agg_blk · W_l + h_blk · W_r) + b, with no activation, as block t of the output.  Entry (p, q) of the
  block is entry (5000 t + p, q) of the layer `sage` of the whole arrays, and the ten blocks tile the output.
  Stated at the contents `V` the call is entered with, whatever they are.
-/
import proofs.«142148_j89601607729381_1_alg».proof.Proof.Gen.KernelIdeal.Frame
import proofs.«142148_j89601607729381_1_alg».proof.Proof.LibSageLayer
import Idealize.ShloMosaic.Lib.Pipeline.Value
import Idealize.ShloMosaic.Lib.ValueIdx

set_option maxRecDepth 16384

noncomputable section

namespace Cert.KernelIdeal.Output

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn Cert.SageLayer

variable (V : (c : Dev nD) → (b : Ref sig .tc) → Buf (Elt Ideal) ((c : Thread nD τ).loc b))

theorem offs_zero : (![0, 0] : Fin 2 → Nat) = fun _ => 0 := funext fun a => by fin_cases a <;> rfl

/-- The output layer as one function of the arrays the call is entered with: the second mean aggregate, the
    hidden features, the two weight matrices, and the bias as the one row the host reshaped it to. -/
def output (c : Dev nD) : S50000x64.Idx → EReal :=
  sage 50000 128 64 (V c main_v43) (V c main_v24) (V c main_arg5) (V c main_arg6)
    (fun q => V c main_v44 (ix2 (0 : Fin 1) q))

/-- The body's stored value at entry (p, q) of a block, from the loaded blocks. -/
theorem stored_entry (x0 x1 : FVec Ideal S5000x128 .f32) (x2 x3 : FVec Ideal S128x64 .f32) (x4 : FVec Ideal S1x64 .f32)
    (p : Fin 5000) (q : Fin 64) :
    k1_pay1 x0 x1 x2 x3 x4 (ix2 p q)
      = (lin 5000 128 64 x0 x2 (ix2 p q) + lin 5000 128 64 x1 x3 (ix2 p q)) + x4 (ix2 (0 : Fin 1) q) := by
  unfold k1_pay1
  exact body_entry x0 x1 x2 x3 x4 bitsLt_bf16_f32 shapeCasts_S5000x128_S5000x128 shapeCasts_S1x64_S1x64
    broadcasts_S1x64_S5000x64 p q

/-- The printed index maps over the grid: the row windows and the output are at block t, the weights and the bias
    at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The loaded blocks, read where the output's entry says -/

/-- Row p of the aggregate's block at point t is row 5000 t + p of the aggregate. -/
theorem read_agg (c : Dev nD) (t : Fin cfg1.N) (p : Fin 5000) (k : Fin 128) (r : Fin 50000)
    (hr : r.val = t.val * 5000 + p.val) : iblk1 V c 0 t (ix2 p k) = V c main_v43 (ix2 r k) := by
  show V c main_v43 (((cfg1.win 0).blk t).view.emb (ix2 p k)) = V c main_v43 (ix2 r k)
  obtain ⟨e0, e1, -⟩ := index_maps t
  refine congrArg (V c main_v43) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row p of the hidden features' block at point t is row 5000 t + p of the hidden features. -/
theorem read_h (c : Dev nD) (t : Fin cfg1.N) (p : Fin 5000) (k : Fin 128) (r : Fin 50000)
    (hr : r.val = t.val * 5000 + p.val) : iblk1 V c 1 t (ix2 p k) = V c main_v24 (ix2 r k) := by
  show V c main_v24 (((cfg1.win 1).blk t).view.emb (ix2 p k)) = V c main_v24 (ix2 r k)
  obtain ⟨-, -, e0, e1, -⟩ := index_maps t
  refine congrArg (V c main_v24) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The left weights are loaded whole. -/
theorem read_wl (c : Dev nD) (t : Fin cfg1.N) (k : Fin 128) (q : Fin 64) :
    iblk1 V c 2 t (ix2 k q) = V c main_arg5 (ix2 k q) := by
  show V c main_arg5 (((cfg1.win 2).blk t).view.emb (ix2 k q)) = V c main_arg5 (ix2 k q)
  obtain ⟨-, -, -, -, e0, e1, -⟩ := index_maps t
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- The right weights are loaded whole. -/
theorem read_wr (c : Dev nD) (t : Fin cfg1.N) (k : Fin 128) (q : Fin 64) :
    iblk1 V c 3 t (ix2 k q) = V c main_arg6 (ix2 k q) := by
  show V c main_arg6 (((cfg1.win 3).blk t).view.emb (ix2 k q)) = V c main_arg6 (ix2 k q)
  obtain ⟨-, -, -, -, -, -, e0, e1, -⟩ := index_maps t
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- The bias row is loaded whole. -/
theorem read_b (c : Dev nD) (t : Fin cfg1.N) (q : Fin 64) :
    iblk1 V c 4 t (ix2 (0 : Fin 1) q) = V c main_v44 (ix2 (0 : Fin 1) q) := by
  show V c main_v44 (((cfg1.win 4).blk t).view.emb (ix2 (0 : Fin 1) q)) = V c main_v44 (ix2 (0 : Fin 1) q)
  obtain ⟨-, -, -, -, -, -, -, -, e0, e1, -⟩ := index_maps t
  refine congrArg (V c main_v44) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-! ## What a point writes back, the cover, the array -/

/-- What point t writes back is block t of the output layer. -/
theorem flushed_eq (c : Dev nD) (t : Fin cfg1.N) :
    (dat1 V c).flushed 5 t = ((cfg1.win 5).blk t).view.read (Elt Ideal) (output V c) := by
  show (cfg1.win 5).cut (grid1.coords t) ((dat1 V c).after 5 t) = _
  rw [after1_5]
  unfold out1_5
  rw [View.canon_unit_zero offs_zero]
  simp only [View.ld_unit_zero (S := S5000x128) offs_zero, View.ld_unit_zero (S := S128x64) offs_zero,
    View.ld_unit_zero (S := S1x64) offs_zero]
  funext j
  obtain ⟨p, q, rfl⟩ : ∃ (p : Fin 5000) (q : Fin 64), j = ix2 p q := ⟨j 0, j 1, eq_ix2 j⟩
  have ht : t.val < 10 := by have h : t.val < grid1.N := t.isLt; have hN : grid1.N = 10 := N_1; omega
  obtain ⟨-, -, -, -, -, -, -, -, -, -, e0, e1⟩ := index_maps t
  have hemb : ((cfg1.win 5).blk t).view.emb (ix2 p q) = ix2 (⟨t.val * 5000 + p.val, by omega⟩ : Fin 50000) q :=
    funext fun a => Fin.ext (by
      match a with
      | ⟨0, _⟩ => show win1_5.index t (0 : Fin 2) * 5000 + 1 * p.val = t.val * 5000 + p.val; omega
      | ⟨1, _⟩ => show win1_5.index t (1 : Fin 2) * 64 + 1 * q.val = q.val; omega)
  show k1_pay1 (iblk1 V c 0 t) (iblk1 V c 1 t) (iblk1 V c 2 t) (iblk1 V c 3 t) (iblk1 V c 4 t) (ix2 p q)
    = output V c (((cfg1.win 5).blk t).view.emb (ix2 p q))
  rw [hemb]
  refine (stored_entry (iblk1 V c 0 t) (iblk1 V c 1 t) (iblk1 V c 2 t) (iblk1 V c 3 t) (iblk1 V c 4 t) p q).trans ?_
  exact grouped_eq_sage (iblk1 V c 0 t) (iblk1 V c 1 t) (iblk1 V c 2 t) (iblk1 V c 3 t) (iblk1 V c 4 t)
    (V c main_v43) (V c main_v24) (V c main_arg5) (V c main_arg6) (fun q => V c main_v44 (ix2 (0 : Fin 1) q))
    p ⟨t.val * 5000 + p.val, by omega⟩ q
    (fun k => read_agg V c t p k _ rfl) (fun k => read_h V c t p k _ rfl)
    (fun k => read_wl V c t k q) (fun k => read_wr V c t k q) (read_b V c t q)

/-- An index of the output array is in point t's block iff each coordinate is in the block's range. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v45).slice (win1_5.rect t)).set ↔ _
  rw [View.set_slice_whole, Rect.mem_set_unit]
  exact Iff.rfl

/-- The ten blocks tile the output: row r is in block r / 5000. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨-, -, -, -, -, -, -, -, -, -, e0, e1⟩ := index_maps t
  have e0' : win1_5.index t (0 : Fin 2) = (i 0).val / 5000 := e0
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- THE ARRAY after the call: the output layer of the arrays it was entered with. -/
theorem array_eq (c : Dev nD) : (dat1 V c).arrAt 5 cfg1.N = output V c :=
  (dat1 V c).arrAt_eq_of_cover 5 (output V c) (fun t _ => flushed_eq V c t) (cover)

end Cert.KernelIdeal.Output

end
-- ==== Proof.Net.lean ====
/-
  The two-layer network as one function of the arguments.

  Both programs compute the same thing in the same order.  The edge list gives each edge a source and a destination
  node (rows 0 and 1 of the id array; a negative source id is wrapped by adding the number of nodes).  The mean
  aggregation of a feature matrix gathers the source row of every edge, adds it into the destination's row, and
  divides each row by the number of edges that arrive there, at least one.  A layer then maps the aggregate and
  the features themselves through two weight matrices and a bias (`sage`); the hidden layer is followed by a maximum
  with zero, and the output layer is applied to the aggregate of the hidden features and to the hidden features.

  The aggregation is the same chain of host operations in the two programs, applied to the features going in.  It is
  named here once, as the operations spell it, and never opened: the two programs agree as soon as the features
  going into it agree.
-/
import proofs.«142148_j89601607729381_1_alg».proof.Proof.Gen.KernelIdeal
import proofs.«142148_j89601607729381_1_alg».proof.Proof.LibSageLayer
import Idealize.ShloMosaic.PureOps.Ideal

noncomputable section

namespace Cert.KernelIdeal.Net

open Cert.KernelIdeal Cert.KernelIdeal.Facts₀ Idealize.ShloMosaic Idealize.ShloMosaic.ValueIdx Cert.SageLayer

/-- The source node of every edge: row 0 of the id array. -/
def srcIds (e : IVec S2x800000 32) : IVec S800000 32 :=
  shapeCast S800000 (extractStridedSlice S1x800000 ![0, 0] e slices_S2x800000_S1x800000_0_0) shapeCasts_S1x800000_S800000

/-- The destination node of every edge: row 1 of the id array. -/
def dstIds (e : IVec S2x800000 32) : IVec S800000 32 :=
  shapeCast S800000 (extractStridedSlice S1x800000 ![1, 0] e slices_S2x800000_S1x800000_1_0) shapeCasts_S1x800000_S800000

/-- The mean over every node's incoming edges of the source's feature row (zero where no edge arrives): the sum of
    the gathered source rows scattered to the destinations, divided by the count of arriving edges, at least one. -/
def meanAgg (feat : FVec Ideal S50000x128 .f32) (s d : IVec S800000 32) : FVec Ideal S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 feat
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S50000 ![] bcast_S_S50000 (constant (F := Ideal) S_ .f32 0x3F800000#32)))))

/-- The hidden features: the first layer of the features and their mean aggregate, under a maximum with zero. -/
def hiddenOf (x : FVec Ideal S50000x128 .f32) (e : IVec S2x800000 32) (wl wr : FVec Ideal S128x128 .f32)
    (b : FVec Ideal S128 .f32) : FVec Ideal S50000x128 .f32 :=
  sageRelu 50000 128 128 (meanAgg x (srcIds e) (dstIds e)) x wl wr (fun q => b (ix1 q))

/-- The network's result: the second layer of the hidden features and their mean aggregate. -/
def net (x : FVec Ideal S50000x128 .f32) (e : IVec S2x800000 32) (wl1 wr1 : FVec Ideal S128x128 .f32)
    (b1 : FVec Ideal S128 .f32) (wl2 wr2 : FVec Ideal S128x64 .f32) (b2 : FVec Ideal S64 .f32) : FVec Ideal S50000x64 .f32 :=
  sage 50000 128 64 (meanAgg (hiddenOf x e wl1 wr1 b1) (srcIds e) (dstIds e)) (hiddenOf x e wl1 wr1 b1) wl2 wr2
    (fun q => b2 (ix1 q))

end Cert.KernelIdeal.Net

end
-- ==== Proof.WholeRun.lean ====
/-
  The idealized kernel's whole run, with every buffer's final contents kept.

  @main is four segments: a stretch of host operations, the first pallas_call, a second stretch, the second
  pallas_call.  The contents of the TensorCore's buffers at the four boundaries are a fold through @main from the
  launch memory (the generated `W0` … `W4`): a host stretch applies its operations, a pallas_call leaves in each of
  its arrays what its write-backs fold to and every other buffer as it was.  The launch theorem for a list of
  segments, applied to the generated segments and proof data, says every weakly fair execution terminates; read
  against the final state, its last thread state says that every unscoped buffer ends at the last boundary's
  contents.  The frame keeps of this only the argument arrays; kept whole here, it also names what the result
  buffer holds.
-/
import proofs.«142148_j89601607729381_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and in
    every final state each unscoped buffer of each TensorCore holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer is the second pallas_call's output array, so it ends at what that call's write-backs fold to,
    from the contents `V3` the call was entered with. -/
theorem result_eq (c : Dev nD) :
    W4 m ρ c (Proc.devRef .tc main_v45) = (dat1 (V3 m ρ) c).arrAt 5 cfg1.N := W4_arr m ρ c 5

/-- The run with the result buffer named, the arguments unchanged. -/
theorem run_result : θ_run defs (onTc (τ := τ) (main (F := F))) ⟨m, fun _ => 0, ρ⟩ (fun r => ∀ c : Dev nD,
      r.2.mem ((c.tc : Thread nD τ).loc main_v45) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v45 (by decide))).trans (result_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.Whole

end
-- ==== Proof.KernelValue.lean ====
/-
  What the idealized kernel's result buffer holds: the network of the arguments.

  The contents the first pallas_call is entered with are the first host stretch applied to the launch memory: its
  aggregate window holds the mean aggregation of the features, its bias window the bias reshaped to one row, and
  the features and weights are the arguments untouched.  So the array it leaves (the hidden layer of what it was
  entered with) is the hidden features `hiddenOf` of the arguments.  The second stretch applies the same
  aggregation to that array, with the same edge ids, and reshapes the second bias; the second call's output array
  (the output layer of what it was entered with) is therefore `net` of the arguments.  The aggregation itself is
  never opened.
-/
import proofs.«142148_j89601607729381_1_alg».proof.Proof.Gen.KernelIdeal.Frame
import proofs.«142148_j89601607729381_1_alg».proof.Proof.HiddenLayer
import proofs.«142148_j89601607729381_1_alg».proof.Proof.OutputLayer
import proofs.«142148_j89601607729381_1_alg».proof.Proof.Net
import proofs.«142148_j89601607729381_1_alg».proof.Proof.WholeRun
import Idealize.ShloMosaic.Lib.StableHlo.Run

set_option maxRecDepth 16384

noncomputable section

namespace Cert.KernelIdeal.Entry

open Cert.KernelIdeal Cert.KernelIdeal.Gen Cert.KernelIdeal.Net
open Idealize.ShloMosaic Idealize.ShloMosaic.TcCoe Idealize.ShloMosaic.ValueIdx Idealize.SL.Sem Idealize.ShloMosaic.StableHlo
open Cert.Gcn Cert.SageLayer

variable (m : (ℓ : Loc nD τ sig) → Buf (Elt Ideal) ℓ) (ρ : Dev nD → PrngReg)

/-! ## After the first host stretch -/

theorem w1_src (c : Dev nD) :
    W1 m ρ c (Proc.devRef .tc main_v1) = srcIds (m ((c : Thread nD τ).loc main_arg1)) := by
  show StableHlo.after hostOps0 (W0 m ρ c) (Proc.devRef .tc main_v1) = _
  after_results_simp <;> rfl

theorem w1_dst (c : Dev nD) :
    W1 m ρ c (Proc.devRef .tc main_v3) = dstIds (m ((c : Thread nD τ).loc main_arg1)) := by
  show StableHlo.after hostOps0 (W0 m ρ c) (Proc.devRef .tc main_v3) = _
  after_results_simp <;> rfl

theorem w1_b2 (c : Dev nD) :
    W1 m ρ c (Proc.devRef .tc main_arg7) = m ((c : Thread nD τ).loc main_arg7) := by
  show StableHlo.after hostOps0 (W0 m ρ c) (Proc.devRef .tc main_arg7) = _
  after_results_simp <;> rfl

set_option maxHeartbeats 4000000 in
/-- The first call's aggregate window: the mean aggregation of the features. -/
theorem entry0_agg (c : Dev nD) :
    V1 m ρ c main_v22 = meanAgg (m ((c : Thread nD τ).loc main_arg0)) (srcIds (m ((c : Thread nD τ).loc main_arg1)))
      (dstIds (m ((c : Thread nD τ).loc main_arg1))) := by
  show StableHlo.after hostOps0 (W0 m ρ c) (Proc.devRef .tc main_v22) = _
  after_results_simp <;> rfl

theorem entry0_x (c : Dev nD) : V1 m ρ c main_arg0 = m ((c : Thread nD τ).loc main_arg0) := by
  show StableHlo.after hostOps0 (W0 m ρ c) (Proc.devRef .tc main_arg0) = _
  after_results_simp <;> rfl

theorem entry0_wl (c : Dev nD) : V1 m ρ c main_arg2 = m ((c : Thread nD τ).loc main_arg2) := by
  show StableHlo.after hostOps0 (W0 m ρ c) (Proc.devRef .tc main_arg2) = _
  after_results_simp <;> rfl

theorem entry0_wr (c : Dev nD) : V1 m ρ c main_arg3 = m ((c : Thread nD τ).loc main_arg3) := by
  show StableHlo.after hostOps0 (W0 m ρ c) (Proc.devRef .tc main_arg3) = _
  after_results_simp <;> rfl

/-- The first call's bias window: the bias as one row. -/
theorem entry0_b (c : Dev nD) :
    V1 m ρ c main_v23 = shapeCast S1x128 (m ((c : Thread nD τ).loc main_arg4)) shapeCasts_S128_S1x128 := by
  show StableHlo.after hostOps0 (W0 m ρ c) (Proc.devRef .tc main_v23) = _
  after_results_simp <;> rfl

/-- The hidden layer of what the first call is entered with is the hidden features of the arguments. -/
theorem hidden_eq (c : Dev nD) :
    Hidden.hidden (V1 m ρ) c = hiddenOf (m ((c : Thread nD τ).loc main_arg0)) (m ((c : Thread nD τ).loc main_arg1))
      (m ((c : Thread nD τ).loc main_arg2)) (m ((c : Thread nD τ).loc main_arg3)) (m ((c : Thread nD τ).loc main_arg4)) := by
  have hb : (fun q : Fin 128 => V1 m ρ c main_v23 (ix2 (0 : Fin 1) q))
      = fun q => m ((c : Thread nD τ).loc main_arg4) (ix1 q) :=
    funext fun q => by rw [entry0_b]; exact shapeCast_n_1n_apply _ shapeCasts_S128_S1x128 q
  unfold Hidden.hidden hiddenOf
  rw [hb, entry0_agg, entry0_x, entry0_wl, entry0_wr]

/-! ## After the first call and the second host stretch -/

/-- The first call leaves the hidden features in its output array. -/
theorem exit0_h (c : Dev nD) :
    W2 m ρ c (Proc.devRef .tc main_v24) = hiddenOf (m ((c : Thread nD τ).loc main_arg0)) (m ((c : Thread nD τ).loc main_arg1))
      (m ((c : Thread nD τ).loc main_arg2)) (m ((c : Thread nD τ).loc main_arg3)) (m ((c : Thread nD τ).loc main_arg4)) :=
  (W2_arr m ρ c 5).trans ((Hidden.array_eq (V1 m ρ) c).trans (hidden_eq m ρ c))

theorem w2_src (c : Dev nD) :
    W2 m ρ c (Proc.devRef .tc main_v1) = srcIds (m ((c : Thread nD τ).loc main_arg1)) :=
  (W2_of_ne m ρ c main_v1 (by decide)).trans (w1_src m ρ c)

theorem w2_dst (c : Dev nD) :
    W2 m ρ c (Proc.devRef .tc main_v3) = dstIds (m ((c : Thread nD τ).loc main_arg1)) :=
  (W2_of_ne m ρ c main_v3 (by decide)).trans (w1_dst m ρ c)

theorem w2_b2 (c : Dev nD) :
    W2 m ρ c (Proc.devRef .tc main_arg7) = m ((c : Thread nD τ).loc main_arg7) :=
  (W2_of_ne m ρ c main_arg7 (by decide)).trans (w1_b2 m ρ c)

set_option maxHeartbeats 4000000 in
/-- The second call's aggregate window: the mean aggregation of the first call's output array, same edge ids. -/
theorem entry1_agg (c : Dev nD) :
    V3 m ρ c main_v43 = meanAgg (W2 m ρ c (Proc.devRef .tc main_v24)) (W2 m ρ c (Proc.devRef .tc main_v1))
      (W2 m ρ c (Proc.devRef .tc main_v3)) := by
  show StableHlo.after hostOps1 (W2 m ρ c) (Proc.devRef .tc main_v43) = _
  after_results_simp <;> rfl

theorem entry1_h (c : Dev nD) : V3 m ρ c main_v24 = W2 m ρ c (Proc.devRef .tc main_v24) := by
  show StableHlo.after hostOps1 (W2 m ρ c) (Proc.devRef .tc main_v24) = _
  after_results_simp <;> rfl

theorem entry1_b (c : Dev nD) :
    V3 m ρ c main_v44 = shapeCast S1x64 (W2 m ρ c (Proc.devRef .tc main_arg7)) shapeCasts_S64_S1x64 := by
  show StableHlo.after hostOps1 (W2 m ρ c) (Proc.devRef .tc main_v44) = _
  after_results_simp <;> rfl

/-- The second call reads the weight arguments as launched: they end as launched, and the call leaves its input
    arrays as it found them. -/
theorem entry1_wl (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)

theorem entry1_wr (c : Dev nD) : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)

/-- The output layer of what the second call is entered with is the network of the arguments. -/
theorem output_eq (c : Dev nD) :
    Output.output (V3 m ρ) c = net (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  have hb : (fun q : Fin 64 => V3 m ρ c main_v44 (ix2 (0 : Fin 1) q))
      = fun q => m ((c : Thread nD τ).loc main_arg7) (ix1 q) :=
    funext fun q => by rw [entry1_b, w2_b2]; exact shapeCast_n_1n_apply _ shapeCasts_S64_S1x64 q
  unfold Output.output net
  rw [hb, entry1_agg, entry1_h, entry1_wl, entry1_wr, exit0_h, w2_src, w2_dst]

/-- THE RESULT ARRAY after the run. -/
theorem result_value (c : Dev nD) :
    (dat1 (V3 m ρ) c).arrAt 5 cfg1.N = net (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
  (Output.array_eq (V3 m ρ) c).trans (output_eq m ρ c)

/-- The idealized kernel's run: the result buffer ends at the network of the arguments, the arguments unchanged. -/
theorem run : θ_run defs (onTc (τ := τ) (main (F := Ideal))) ⟨m, fun _ => 0, ρ⟩ (fun r => ∀ c : Dev nD,
      r.2.mem ((c.tc : Thread nD τ).loc main_v45) = net (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩)
    (Cert.KernelIdeal.Whole.run_result m ρ)

end Cert.KernelIdeal.Entry

end
-- ==== Proof.RefValue.lean ====
/-
  What the idealized reference computes: the same network of the arguments.

  The reference's run ends with its result at one composed term of the arguments.  Read in pieces, it is: the mean
  aggregation of the features, a layer in the host's spelling (two dot_generals, the bias broadcast to a row and
  down the rows added between them) under a maximum with a broadcast zero, the mean aggregation of that with the
  same edge ids, and a second layer in the same spelling.  The aggregation and the edge ids are, operation for
  operation, the ones the kernel's program applies; the host's layer is the function `sage` of its operands.  So
  the term is `net` of the arguments.
-/
import proofs.«142148_j89601607729381_1_alg».proof.Proof.Gen.ReferenceIdeal.Run
import proofs.«142148_j89601607729381_1_alg».proof.Proof.Net
import proofs.«142148_j89601607729381_1_alg».proof.Proof.LibSageLayer

set_option maxRecDepth 16384

noncomputable section

namespace Cert.ReferenceIdeal.RefValue

open Cert.ReferenceIdeal Cert.ReferenceIdeal.Facts₀
open Idealize.ShloMosaic Idealize.ShloMosaic.TcCoe Idealize.ShloMosaic.ValueIdx Idealize.SL.Sem
open Cert.SageLayer

/-! ## The reference's spelling of the pieces -/

/-- The source node of every edge, as the reference slices it. -/
def srcIds (e : IVec S2x800000 32) : IVec S800000 32 :=
  shapeCast S800000 (extractStridedSlice S1x800000 ![0, 0] e slices_S2x800000_S1x800000_0_0) shapeCasts_S1x800000_S800000

/-- The destination node of every edge, as the reference slices it. -/
def dstIds (e : IVec S2x800000 32) : IVec S800000 32 :=
  shapeCast S800000 (extractStridedSlice S1x800000 ![1, 0] e slices_S2x800000_S1x800000_1_0) shapeCasts_S1x800000_S800000

/-- The reference's mean aggregation: the same operations as the kernel's program applies. -/
def meanAgg (feat : FVec Ideal S50000x128 .f32) (s d : IVec S800000 32) : FVec Ideal S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 feat
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S50000 ![] bcast_S_S50000 (constant (F := Ideal) S_ .f32 0x3F800000#32)))))

/-- The reference's hidden layer. -/
def hostHidden (x : FVec Ideal S50000x128 .f32) (e : IVec S2x800000 32) (wl wr : FVec Ideal S128x128 .f32)
    (b : FVec Ideal S128 .f32) : FVec Ideal S50000x128 .f32 :=
  maximumf
    (addf (addf (Host.dotGeneral dot_S50000x128_S128x128_S50000x128_1_0_0_1_n_n none (meanAgg x (srcIds e) (dstIds e)) wl)
        (broadcastInDim S50000x128 ![0, 1] bcast_S1x128_S50000x128_0_1 (broadcastInDim S1x128 ![1] bcast_S128_S1x128_1 b)))
      (Host.dotGeneral dot_S50000x128_S128x128_S50000x128_1_0_0_1_n_n none x wr))
    (broadcastInDim S50000x128 ![] bcast_S_S50000x128 (constant (F := Ideal) S_ .f32 0x00000000#32))

/-- The reference's result. -/
def hostNet (x : FVec Ideal S50000x128 .f32) (e : IVec S2x800000 32) (wl1 wr1 : FVec Ideal S128x128 .f32)
    (b1 : FVec Ideal S128 .f32) (wl2 wr2 : FVec Ideal S128x64 .f32) (b2 : FVec Ideal S64 .f32) : FVec Ideal S50000x64 .f32 :=
  addf (addf (Host.dotGeneral dot_S50000x128_S128x64_S50000x64_1_0_0_1_n_n none
        (meanAgg (hostHidden x e wl1 wr1 b1) (srcIds e) (dstIds e)) wl2)
      (broadcastInDim S50000x64 ![0, 1] bcast_S1x64_S50000x64_0_1 (broadcastInDim S1x64 ![1] bcast_S64_S1x64_1 b2)))
    (Host.dotGeneral dot_S50000x128_S128x64_S50000x64_1_0_0_1_n_n none (hostHidden x e wl1 wr1 b1) wr2)

/-! ## The pieces are the kernel program's -/

theorem srcIds_eq : srcIds = Cert.KernelIdeal.Net.srcIds := rfl
theorem dstIds_eq : dstIds = Cert.KernelIdeal.Net.dstIds := rfl
theorem meanAgg_eq : meanAgg = Cert.KernelIdeal.Net.meanAgg := rfl

/-- The reference's hidden layer is the hidden features. -/
theorem hostHidden_eq (x : FVec Ideal S50000x128 .f32) (e : IVec S2x800000 32) (wl wr : FVec Ideal S128x128 .f32)
    (b : FVec Ideal S128 .f32) : hostHidden x e wl wr b = Cert.KernelIdeal.Net.hiddenOf x e wl wr b := by
  unfold hostHidden Cert.KernelIdeal.Net.hiddenOf
  rw [← meanAgg_eq, ← srcIds_eq, ← dstIds_eq]
  exact sageRelu_host (meanAgg x (srcIds e) (dstIds e)) x wl wr b bcast_S128_S1x128_1 bcast_S1x128_S50000x128_0_1
    bcast_S_S50000x128

/-- The reference's result is the network. -/
theorem hostNet_eq (x : FVec Ideal S50000x128 .f32) (e : IVec S2x800000 32) (wl1 wr1 : FVec Ideal S128x128 .f32)
    (b1 : FVec Ideal S128 .f32) (wl2 wr2 : FVec Ideal S128x64 .f32) (b2 : FVec Ideal S64 .f32) :
    hostNet x e wl1 wr1 b1 wl2 wr2 b2 = Cert.KernelIdeal.Net.net x e wl1 wr1 b1 wl2 wr2 b2 := by
  unfold hostNet Cert.KernelIdeal.Net.net
  rw [hostHidden_eq, ← meanAgg_eq, ← srcIds_eq, ← dstIds_eq]
  exact sage_host (meanAgg (Cert.KernelIdeal.Net.hiddenOf x e wl1 wr1 b1) (srcIds e) (dstIds e))
    (Cert.KernelIdeal.Net.hiddenOf x e wl1 wr1 b1) wl2 wr2 b2 bcast_S64_S1x64_1 bcast_S1x64_S50000x64_0_1

/-! ## The run's term -/

/-- The run's composed term is the reference's result in the named pieces. -/
theorem res_spelling (m : (ℓ : Loc nD τ sig) → Buf (Elt Ideal) ℓ) (c : Dev nD) :
    Cert.ReferenceIdeal.Value.res_main_v54 (F := Ideal) m c
      = hostNet (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v54
  rfl

/-- THE REFERENCE'S RESULT: the network of the arguments. -/
theorem res_eq (m : (ℓ : Loc nD τ sig) → Buf (Elt Ideal) ℓ) (c : Dev nD) :
    Cert.ReferenceIdeal.Value.res_main_v54 (F := Ideal) m c
      = Cert.KernelIdeal.Net.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) :=
  (res_spelling m c).trans (hostNet_eq _ _ _ _ _ _ _ _)

end Cert.ReferenceIdeal.RefValue

end
-- ==== Proof.lean ====
/-
  The certificate: a two-layer GraphSAGE network (mean aggregation) on 50000 nodes and 800000 edges, its two dense
  layers as Pallas kernels, against the plain jnp network, equal on the extended reals.

  Both programs compute, per layer,  mean_agg(h) · W_l + b + h · W_r,  where mean_agg gathers each edge's source row,
  adds it into the destination's row and divides by the count of arriving edges (at least one); the hidden layer is
  followed by a maximum with zero.  The aggregation runs on the host in both programs, as the same operations.  The
  kernel computes each dense layer block by block over ten blocks of 5000 rows, as (agg · W_l + h · W_r) + b with
  the operands narrowed to bf16 on the way into the matrix products, which changes nothing at the ideal values;
  the reference computes (agg · W_l + b) + h · W_r on whole matrices.  An entry of a layer depends on one row of its
  operands only, so the blocks are restrictions of one function of the whole arrays, and the two groupings of the
  three-term sum agree because addition of extended reals is commutative and associative.  No finiteness of the
  inputs is used.

  The modules: LibSageLayer (the layer as a function of rows, both spellings, the regrouping), Net (the network as one
  function of the arguments, the aggregation named and never opened), WholeRun (the kernel's run with every buffer's
  final contents), HiddenLayer and OutputLayer (the array each pallas_call leaves), KernelValue (the kernel's result
  is the network of the arguments), RefValue (so is the reference's).  The frames of the two kernel programs are the
  generated ones; the reference's is its generated run with the result dropped; the idealization rewrote nothing.
-/
import proofs.«142148_j89601607729381_1_alg».proof.Defs
import proofs.«142148_j89601607729381_1_alg».proof.Proof.Gen.Kernel
import proofs.«142148_j89601607729381_1_alg».proof.Proof.Gen.Kernel.Frame
import proofs.«142148_j89601607729381_1_alg».proof.Proof.Gen.KernelIdeal
import proofs.«142148_j89601607729381_1_alg».proof.Proof.Gen.KernelIdeal.Frame
import proofs.«142148_j89601607729381_1_alg».proof.Proof.Gen.ReferenceIdeal
import proofs.«142148_j89601607729381_1_alg».proof.Proof.Gen.ReferenceIdeal.Run
import proofs.«142148_j89601607729381_1_alg».proof.Proof.Gen.Pre_finite_inputs
import proofs.«142148_j89601607729381_1_alg».proof.Proof.KernelValue
import proofs.«142148_j89601607729381_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result buffer and the reference's both end at the
    network of the arguments. -/
theorem algebraic : Cert.algebraic_KernelIdeal_ReferenceIdeal := by
  intro m ρ m' ρ' _ hagree
  refine ⟨_, Cert.KernelIdeal.Entry.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
